-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S64x64 : Shape := ⟨2, ![64, 64]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S65536x512 .f32) (main_arg1 : FVec F S64x64 .f32) (main_arg2 : FVec F S64x64 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  main_v13
-- ==== Kernel.lean ====
abbrev S65536x512 : Shape := ⟨2, ![65536, 512]⟩
abbrev S64x64 : Shape := ⟨2, ![64, 64]⟩
abbrev S_ : Shape := ⟨0, ![]⟩
abbrev S8x8 : Shape := ⟨2, ![8, 8]⟩
abbrev S8x8x1x1 : Shape := ⟨4, ![8, 8, 1, 1]⟩
abbrev S1x1x64x64 : Shape := ⟨4, ![1, 1, 64, 64]⟩
abbrev S8x8x64x64 : Shape := ⟨4, ![8, 8, 64, 64]⟩
abbrev S8x64x8x64 : Shape := ⟨4, ![8, 64, 8, 64]⟩
abbrev S512x512 : Shape := ⟨2, ![512, 512]⟩
abbrev S2048x512 : Shape := ⟨2, ![2048, 512]⟩

abbrev nBuf : Space → Nat
  | .hbm => 25
  | .vmem => 5
  | .smem => 0
  | _ => 0

abbrev bufTy : (tb : Table) → Fin (tcTables nBuf tb) → BufTy
  | .hbm, ⟨0, _⟩ => ⟨S65536x512, .f32⟩
  | .hbm, ⟨1, _⟩ => ⟨S64x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S_, .f32⟩
  | .hbm, ⟨6, _⟩ => ⟨S64x64, .f32⟩
  | .hbm, ⟨7, _⟩ => ⟨S64x64, .f32⟩
  | .hbm, ⟨8, _⟩ => ⟨S8x8, .i32⟩
  | .hbm, ⟨9, _⟩ => ⟨S8x8, .i32⟩
  | .hbm, ⟨10, _⟩ => ⟨S_, .i32⟩
  | .hbm, ⟨11, _⟩ => ⟨S8x8, .i32⟩
  | .hbm, ⟨12, _⟩ => ⟨S8x8, .i32⟩
  | .hbm, ⟨13, _⟩ => ⟨S8x8, .i1⟩
  | .hbm, ⟨14, _⟩ => ⟨S8x8x1x1, .i1⟩
  | .hbm, ⟨15, _⟩ => ⟨S1x1x64x64, .f32⟩
  | .hbm, ⟨16, _⟩ => ⟨S1x1x64x64, .f32⟩
  | .hbm, ⟨17, _⟩ => ⟨S8x8x64x64, .i1⟩
  | .hbm, ⟨18, _⟩ => ⟨S8x8x64x64, .f32⟩
  | .hbm, ⟨19, _⟩ => ⟨S8x8x64x64, .f32⟩
  | .hbm, ⟨20, _⟩ => ⟨S8x8x64x64, .f32⟩
  | .hbm, ⟨21, _⟩ => ⟨S8x64x8x64, .f32⟩
  | .hbm, ⟨22, _⟩ => ⟨S512x512, .f32⟩
  | .hbm, ⟨23, _⟩ => ⟨S512x512, .bf16⟩
  | .hbm, ⟨24, _⟩ => ⟨S65536x512, .f32⟩
  | .local _ .vmem, ⟨0, _⟩ => ⟨S2048x512, .f32⟩
  | .local _ .vmem, ⟨1, _⟩ => ⟨S2048x512, .f32⟩
  | .local _ .vmem, ⟨2, _⟩ => ⟨S512x512, .bf16⟩
  | .local _ .vmem, ⟨3, _⟩ => ⟨S2048x512, .f32⟩
  | .local _ .vmem, ⟨4, _⟩ => ⟨S2048x512, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_v0 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S64x64_S64x64_1_0 : S64x64.Transposes [1, 0] S64x64
  bcast_S_S64x64 : S_.BroadcastsInDim S64x64 (![] : Fin 0 → Fin S64x64.rank)
  bcast_S_S8x8 : S_.BroadcastsInDim S8x8 (![] : Fin 0 → Fin S8x8.rank)
  bcast_S8x8_S8x8x1x1_0_1 : S8x8.BroadcastsInDim S8x8x1x1 (![0, 1] : Fin 2 → Fin S8x8x1x1.rank)
  bcast_S64x64_S1x1x64x64_2_3 : S64x64.BroadcastsInDim S1x1x64x64 (![2, 3] : Fin 2 → Fin S1x1x64x64.rank)
  bcast_S8x8x1x1_S8x8x64x64_0_1_2_3 : S8x8x1x1.BroadcastsInDim S8x8x64x64 (![0, 1, 2, 3] : Fin 4 → Fin S8x8x64x64.rank)
  bcast_S1x1x64x64_S8x8x64x64_0_1_2_3 : S1x1x64x64.BroadcastsInDim S8x8x64x64 (![0, 1, 2, 3] : Fin 4 → Fin S8x8x64x64.rank)
  transposes_S8x8x64x64_S8x64x8x64_0_2_1_3 : S8x8x64x64.Transposes [0, 2, 1, 3] S8x64x8x64
  shapeCasts_S8x64x8x64_S512x512 : S8x64x8x64.ShapeCasts S512x512
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S65536x512.size a
  hwx0_2 : ∀ i : grid0.Coords, EltTy.bits .f32 = 32 ∨ (Rect.block (s := S65536x512) S2048x512.size (cc0_transform_2 i) (hinb0_2 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v15) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x512 : Shape := ⟨2, ![65536, 512]⟩
abbrev S64x64 : Shape := ⟨2, ![64, 64]⟩
abbrev S65536x8x64 : Shape := ⟨3, ![65536, 8, 64]⟩
abbrev S_ : Shape := ⟨0, ![]⟩
abbrev S65536x64 : Shape := ⟨2, ![65536, 64]⟩
abbrev S65536x1x64 : Shape := ⟨3, ![65536, 1, 64]⟩

abbrev nBuf : Space → Nat
  | .hbm => 17
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S64x64, .f32⟩
  | .hbm, ⟨2, _⟩ => ⟨S64x64, .f32⟩
  | .hbm, ⟨3, _⟩ => ⟨S65536x8x64, .f32⟩
  | .hbm, ⟨4, _⟩ => ⟨S_, .f32⟩
  | .hbm, ⟨5, _⟩ => ⟨S65536x64, .f32⟩
  | .hbm, ⟨6, _⟩ => ⟨S65536x1x64, .f32⟩
  | .hbm, ⟨7, _⟩ => ⟨S65536x8x64, .f32⟩
  | .hbm, ⟨8, _⟩ => ⟨S65536x8x64, .f32⟩
  | .hbm, ⟨9, _⟩ => ⟨S65536x8x64, .f32⟩
  | .hbm, ⟨10, _⟩ => ⟨S65536x8x64, .f32⟩
  | .hbm, ⟨11, _⟩ => ⟨S_, .f32⟩
  | .hbm, ⟨12, _⟩ => ⟨S65536x8x64, .f32⟩
  | .hbm, ⟨13, _⟩ => ⟨S65536x8x64, .f32⟩
  | .hbm, ⟨14, _⟩ => ⟨S65536x8x64, .f32⟩
  | .hbm, ⟨15, _⟩ => ⟨S65536x8x64, .f32⟩
  | .hbm, ⟨16, _⟩ => ⟨S65536x512, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  shapeCasts_S65536x512_S65536x8x64 : S65536x512.ShapeCasts S65536x8x64
  reducesTo_S65536x8x64_S65536x64_d1 : S65536x8x64.ReducesTo [1] S65536x64
  h_S_ : 0 < S_.numel
  bcast_S65536x64_S65536x1x64_0_2 : S65536x64.BroadcastsInDim S65536x1x64 (![0, 2] : Fin 2 → Fin S65536x1x64.rank)
  bcast_S65536x1x64_S65536x8x64_0_1_2 : S65536x1x64.BroadcastsInDim S65536x8x64 (![0, 1, 2] : Fin 3 → Fin S65536x8x64.rank)
  bcast_S_S65536x8x64 : S_.BroadcastsInDim S65536x8x64 (![] : Fin 0 → Fin S65536x8x64.rank)
  shapeCasts_S65536x8x64_S65536x512 : S65536x8x64.ShapeCasts S65536x512
  dot_S65536x8x64_S64x64_S65536x8x64_2_1_01_0_n_n_wf : DotDims.WF S65536x8x64 S64x64 S65536x8x64 [2] [1] [0, 1] [0] [] []

variable [Facts₀]

def dot_S65536x8x64_S64x64_S65536x8x64_2_1_01_0_n_n : DotDims S65536x8x64 S64x64 S65536x8x64 where
  lhsContracting := [2]
  rhsContracting := [1]
  lhsNonContracting := [0, 1]
  rhsNonContracting := [0]
  lhsBatch := []
  rhsBatch := []
  wf := dot_S65536x8x64_S64x64_S65536x8x64_2_1_01_0_n_n_wf

class Facts : Prop extends Facts₀ where

variable [Facts]
-- ==== Proof.Spec.lean ====
/-
  The layer as two formulas over the extended reals.

  A row of 512 numbers is eight agents' vectors of 64 components: position `a * 64 + d` is component `d` of agent `a`.
  With `H` and `C` two 64 x 64 matrices, the layer sends row `b` of `x` to, at agent `a` and component `e`,
    tanh ( sum_d x[b, a, d] * H[e, d]  +  ( sum_d (sum_a' x[b, a', d] - x[b, a, d]) * C[e, d] ) / 7 ).
  `message` is that formula as written: the agent's own vector through `H`, the sum of the OTHER agents' vectors (all of
  them minus its own) through `C`, divided by the number of other agents.
  `dense` is the same layer as one product with a 512 x 512 matrix `weight`: the 64 x 64 block that takes agent `a'` to
  agent `a` is the transpose of `H` when `a' = a` and the transpose of `C`, every entry divided by 7, otherwise.
  Both divide by the same f32 word for 7.0, kept as a word here.
-/
import Idealize.ShloMosaic.PureOps.Ideal
import Idealize.ShloMosaic.Lib.ValueIdx

noncomputable section

namespace Cert.CommLayer

open Idealize.ShloMosaic Idealize.ShloMosaic.ValueIdx

/-- A matrix of extended reals with literal extents. -/
abbrev Mat (a b : ℕ) : Type := (⟨2, ![a, b]⟩ : Shape).Idx → EReal

/-- The divisor both programs spell: the f32 word of 7.0. -/
abbrev seven : EReal := Ideal.ofBits .f32 0x40E00000#32

/-- Component `d` of agent `a` sits at position `a * 64 + d` of a row. -/
def pos (a : Fin 8) (d : Fin 64) : Fin 512 := ⟨a.val * 64 + d.val, by have := a.isLt; have := d.isLt; omega⟩

/-- The agent a position belongs to. -/
def agent (n : Fin 512) : Fin 8 := ⟨n.val / 64, by have := n.isLt; omega⟩

/-- The component a position holds. -/
def comp (n : Fin 512) : Fin 64 := ⟨n.val % 64, by omega⟩

theorem agent_pos (a : Fin 8) (d : Fin 64) : agent (pos a d) = a := by
  apply Fin.ext; show (a.val * 64 + d.val) / 64 = a.val; have := d.isLt; omega

theorem comp_pos (a : Fin 8) (d : Fin 64) : comp (pos a d) = d := by
  apply Fin.ext; show (a.val * 64 + d.val) % 64 = d.val; have := d.isLt; omega

theorem pos_agent_comp (n : Fin 512) : pos (agent n) (comp n) = n := by
  apply Fin.ext; show n.val / 64 * 64 + n.val % 64 = n.val; omega

/-- Entry `(k, n)` of the 512 x 512 matrix: from component `comp k` of agent `agent k` to component `comp n` of agent
    `agent n`. -/
def weight (H C : Mat 64 64) (k n : Fin 512) : EReal :=
  if agent k = agent n then H (ix2 (comp n) (comp k)) else Ideal.div (C (ix2 (comp n) (comp k))) seven

/-- The layer as one matrix product. -/
def dense (x : Mat 65536 512) (H C : Mat 64 64) : Mat 65536 512 := fun i =>
  Ideal.tanh (∑ k : Fin 512, x (ix2 (i 0) k) * weight H C k (i 1))

/-- The layer as written: own vector through `H`, the others' sum through `C` over 7. The sum over the agents starts from
    the f32 word of 0.0, as a sum on the host does. -/
def message (x : Mat 65536 512) (H C : Mat 64 64) : Mat 65536 512 := fun i =>
  Ideal.tanh ((∑ d : Fin 64, x (ix2 (i 0) (pos (agent (i 1)) d)) * H (ix2 (comp (i 1)) d))
    + Ideal.div (∑ d : Fin 64, ((Ideal.ofBits .f32 0x00000000#32 + ∑ a' : Fin 8, x (ix2 (i 0) (pos a' d)))
        - x (ix2 (i 0) (pos (agent (i 1)) d))) * C (ix2 (comp (i 1)) d)) seven)

end Cert.CommLayer

end
-- ==== Proof.Weights.lean ====
/-
  The 512 x 512 matrix the kernel's program builds on the host before the grid runs, entry by entry.

  The program transposes `H` and `C`, divides the transposed `C` by 7, and lays 64 x 64 blocks on an 8 x 8 grid of agents
  (a', a): the transposed `H` where `a' = a` (the mask compares two index ramps), the divided transposed `C` elsewhere.
  Seen as an array [a', a, d, e] it is then rearranged to [a', d, a, e] and flattened, so row `a' * 64 + d` and column
  `a * 64 + e` of the result hold block (a', a) at (d, e): `H` at (e, d) on the diagonal blocks, `C` at (e, d) over 7 off
  them — the matrix `weight`. The last rounding to bf16 is the identity at the ideal values.
-/
import proofs.«179993_j87067577024538_2_alg».proof.Proof.Gen.KernelIdeal
import proofs.«179993_j87067577024538_2_alg».proof.Proof.Spec
import Idealize.ShloMosaic.Lib.Pipeline.Value
import Idealize.ShloMosaic.Lib.ValueIdx
import Idealize.ShloMosaic.Lib.ValueLayout

noncomputable section

namespace Cert.CommLayer

open Cert.KernelIdeal Cert.KernelIdeal.Gen Idealize.ShloMosaic Idealize.ShloMosaic.ValueIdx

/-- The mask over the 8 x 8 pairs of agents: the row ramp (plus a zero) compared with the column ramp. -/
def sameAgent : IVec S8x8 1 :=
  cmpi .eq (addi (iotaInDim S8x8 32 0) (broadcastInDim S8x8 ![] bcast_S_S8x8 (constantI S_ 32 0#32))) (iotaInDim S8x8 32 1)

/-- The transposed `H` as a [1, 1, 64, 64] array. -/
def ownBlock (H : FVec Ideal S64x64 .f32) : FVec Ideal S1x1x64x64 .f32 :=
  broadcastInDim S1x1x64x64 ![2, 3] bcast_S64x64_S1x1x64x64_2_3 (transpose S64x64 [1, 0] H transposes_S64x64_S64x64_1_0)

/-- The transposed `C` over 7 as a [1, 1, 64, 64] array. -/
def otherBlock (C : FVec Ideal S64x64 .f32) : FVec Ideal S1x1x64x64 .f32 :=
  broadcastInDim S1x1x64x64 ![2, 3] bcast_S64x64_S1x1x64x64_2_3
    (Host.divf (transpose S64x64 [1, 0] C transposes_S64x64_S64x64_1_0)
      (broadcastInDim S64x64 ![] bcast_S_S64x64 (constant (F := Ideal) S_ .f32 0x40E00000#32)))

/-- The blocks chosen pair by pair, as an array [a', a, d, e]. -/
def blocks (H C : FVec Ideal S64x64 .f32) : FVec Ideal S8x8x64x64 .f32 :=
  select
    (broadcastInDim S8x8x64x64 ![0, 1, 2, 3] bcast_S8x8x1x1_S8x8x64x64_0_1_2_3
      (broadcastInDim S8x8x1x1 ![0, 1] bcast_S8x8_S8x8x1x1_0_1 sameAgent))
    (broadcastInDim S8x8x64x64 ![0, 1, 2, 3] bcast_S1x1x64x64_S8x8x64x64_0_1_2_3 (ownBlock H))
    (broadcastInDim S8x8x64x64 ![0, 1, 2, 3] bcast_S1x1x64x64_S8x8x64x64_0_1_2_3 (otherBlock C))

/-- The matrix the grid reads: the blocks rearranged to [a', d, a, e], flattened, rounded. -/
def blockMatrix (H C : FVec Ideal S64x64 .f32) : FVec Ideal S512x512 .bf16 :=
  truncf .bf16
    (shapeCast S512x512 (transpose S8x64x8x64 [0, 2, 1, 3] (blocks H C) transposes_S8x8x64x64_S8x64x8x64_0_2_1_3)
      shapeCasts_S8x64x8x64_S512x512)
    bitsLt_bf16_f32

/-- The mask at a pair of agents. -/
theorem sameAgent_apply (a' a : Fin 8) : sameAgent (ix2 a' a) = if a' = a then 1#1 else 0#1 := by
  show IntOp.cmpi .eq (IntOp.addi (BitVec.ofNat 32 a'.val) 0#32) (BitVec.ofNat 32 a.val) = _
  revert a' a
  decide

theorem ownBlock_apply (H : FVec Ideal S64x64 .f32) (d e : Fin 64) :
    ownBlock H (ix4 (0 : Fin 1) (0 : Fin 1) d e) = H (ix2 e d) := by
  unfold ownBlock
  refine (broadcastInDim_apply _ bcast_S64x64_S1x1x64x64_2_3 _ _ (ix2 d e) fun ax => ?_).trans
    (transpose_ix2_apply H transposes_S64x64_S64x64_1_0 d e)
  match ax with
  | ⟨0, _⟩ => show d.val = if (64 : Nat) = 1 then 0 else d.val; rw [if_neg (by decide)]
  | ⟨1, _⟩ => show e.val = if (64 : Nat) = 1 then 0 else e.val; rw [if_neg (by decide)]

theorem otherBlock_apply (C : FVec Ideal S64x64 .f32) (d e : Fin 64) :
    otherBlock C (ix4 (0 : Fin 1) (0 : Fin 1) d e) = Ideal.div (C (ix2 e d)) seven := by
  unfold otherBlock
  refine (broadcastInDim_apply _ bcast_S64x64_S1x1x64x64_2_3 _ _ (ix2 d e) fun ax => ?_).trans ?_
  · match ax with
    | ⟨0, _⟩ => show d.val = if (64 : Nat) = 1 then 0 else d.val; rw [if_neg (by decide)]
    | ⟨1, _⟩ => show e.val = if (64 : Nat) = 1 then 0 else e.val; rw [if_neg (by decide)]
  · show Ideal.div (transpose S64x64 [1, 0] C transposes_S64x64_S64x64_1_0 (ix2 d e)) _ = _
    rw [transpose_ix2_apply C transposes_S64x64_S64x64_1_0 d e]
    rfl

/-- Block (a', a) at (d, e). -/
theorem blocks_apply (H C : FVec Ideal S64x64 .f32) (a' a : Fin 8) (d e : Fin 64) :
    blocks H C (ix4 a' a d e) = if a' = a then H (ix2 e d) else Ideal.div (C (ix2 e d)) seven := by
  unfold blocks
  rw [select_apply]
  have hmask : broadcastInDim S8x8x64x64 ![0, 1, 2, 3] bcast_S8x8x1x1_S8x8x64x64_0_1_2_3
      (broadcastInDim S8x8x1x1 ![0, 1] bcast_S8x8_S8x8x1x1_0_1 sameAgent) (ix4 a' a d e) = if a' = a then 1#1 else 0#1 := by
    refine (broadcastInDim_apply _ bcast_S8x8x1x1_S8x8x64x64_0_1_2_3 _ _ (ix4 a' a (0 : Fin 1) (0 : Fin 1)) fun ax => ?_).trans ?_
    · match ax with
      | ⟨0, _⟩ => show a'.val = if (8 : Nat) = 1 then 0 else a'.val; rw [if_neg (by decide)]
      | ⟨1, _⟩ => show a.val = if (8 : Nat) = 1 then 0 else a.val; rw [if_neg (by decide)]
      | ⟨2, _⟩ => show 0 = if (1 : Nat) = 1 then 0 else d.val; rw [if_pos rfl]
      | ⟨3, _⟩ => show 0 = if (1 : Nat) = 1 then 0 else e.val; rw [if_pos rfl]
    · refine (broadcastInDim_apply _ bcast_S8x8_S8x8x1x1_0_1 _ _ (ix2 a' a) fun ax => ?_).trans (sameAgent_apply a' a)
      match ax with
      | ⟨0, _⟩ => show a'.val = if (8 : Nat) = 1 then 0 else a'.val; rw [if_neg (by decide)]
      | ⟨1, _⟩ => show a.val = if (8 : Nat) = 1 then 0 else a.val; rw [if_neg (by decide)]
  have hown : broadcastInDim S8x8x64x64 ![0, 1, 2, 3] bcast_S1x1x64x64_S8x8x64x64_0_1_2_3 (ownBlock H) (ix4 a' a d e)
      = H (ix2 e d) := by
    refine (broadcastInDim_apply _ bcast_S1x1x64x64_S8x8x64x64_0_1_2_3 _ _ (ix4 (0 : Fin 1) (0 : Fin 1) d e) fun ax => ?_).trans
      (ownBlock_apply H d e)
    match ax with
    | ⟨0, _⟩ => show 0 = if (1 : Nat) = 1 then 0 else a'.val; rw [if_pos rfl]
    | ⟨1, _⟩ => show 0 = if (1 : Nat) = 1 then 0 else a.val; rw [if_pos rfl]
    | ⟨2, _⟩ => show d.val = if (64 : Nat) = 1 then 0 else d.val; rw [if_neg (by decide)]
    | ⟨3, _⟩ => show e.val = if (64 : Nat) = 1 then 0 else e.val; rw [if_neg (by decide)]
  have hother : broadcastInDim S8x8x64x64 ![0, 1, 2, 3] bcast_S1x1x64x64_S8x8x64x64_0_1_2_3 (otherBlock C) (ix4 a' a d e)
      = Ideal.div (C (ix2 e d)) seven := by
    refine (broadcastInDim_apply _ bcast_S1x1x64x64_S8x8x64x64_0_1_2_3 _ _ (ix4 (0 : Fin 1) (0 : Fin 1) d e) fun ax => ?_).trans
      (otherBlock_apply C d e)
    match ax with
    | ⟨0, _⟩ => show 0 = if (1 : Nat) = 1 then 0 else a'.val; rw [if_pos rfl]
    | ⟨1, _⟩ => show 0 = if (1 : Nat) = 1 then 0 else a.val; rw [if_pos rfl]
    | ⟨2, _⟩ => show d.val = if (64 : Nat) = 1 then 0 else d.val; rw [if_neg (by decide)]
    | ⟨3, _⟩ => show e.val = if (64 : Nat) = 1 then 0 else e.val; rw [if_neg (by decide)]
  rw [hmask, hown, hother]
  by_cases h : a' = a
  · rw [if_pos h, if_pos h]; exact select_one _ _
  · rw [if_neg h, if_neg h]; exact select_zero _ _

/-- Entry (k, n) of the matrix the grid reads. -/
theorem blockMatrix_apply (H C : FVec Ideal S64x64 .f32) (k n : Fin 512) : blockMatrix H C (ix2 k n) = weight H C k n := by
  unfold blockMatrix
  rw [truncf_apply]
  refine (shapeCast_apply _ shapeCasts_S8x64x8x64_S512x512 (ix2 k n) (ix4 (agent k) (comp k) (agent n) (comp n)) ?_).trans ?_
  · rw [Shape.rowMajor_val_four, Shape.rowMajor_val_two]
    have hk := k.isLt; have hn := n.isLt
    show ((k.val / 64 * 64 + k.val % 64) * 8 + n.val / 64) * 64 + n.val % 64 = k.val * 512 + n.val
    omega
  · refine (transpose_apply _ _ transposes_S8x8x64x64_S8x64x8x64_0_2_1_3 _ (ix4 (agent k) (agent n) (comp k) (comp n)) fun ax => ?_).trans ?_
    · match ax with
      | ⟨0, _⟩ => rfl
      | ⟨1, _⟩ => rfl
      | ⟨2, _⟩ => rfl
      | ⟨3, _⟩ => rfl
    · rw [blocks_apply]
      rfl

end Cert.CommLayer

end
-- ==== Proof.LibContract1.lean ====
/-
  A matrix product whose dimension numbers contract ONE axis, read at a result index at the ideal values, for any
  dimension record: the kernel's `tpu.matmul` into the zero accumulator and the host's `dot_general` are both the sum,
  over that axis's coordinate `k : Fin n`, of the operands' products, each operand read at an index the caller NAMES
  (`L k`, `R k`) and proves to be where the record sends the result index and `k`. The caller's two obligations are
  per-axis facts about `DotDims.lhsIdx` / `rhsIdx` (`DotDims.lhsIdx_val_of_single` on the contracted axis, two `dif`
  rewrites on a kept one); everything else — opening the product, re-indexing the contraction shape's one-axis index by
  `Fin n` — is done here once.
-/
import Idealize.ShloMosaic.PureOps.Ideal.Laws
import Idealize.ShloMosaic.Lib.ValueIdx

noncomputable section

namespace Cert.LibContract1

open Idealize.ShloMosaic Idealize.ShloMosaic.ValueIdx

/-- A `tpu.matmul` into the f32 zero splat, one contracted axis of extent `n`: at `j` it is `∑ k, lhs (L k) · rhs (R k)`. -/
theorem matmul_zero_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    matmul d none lhs rhs (constant (F := Ideal) so .f32 0x00000000#32) j = ∑ k : Fin n, lhs (L k) * rhs (R k) := by
  simp only [matmul]
  rw [Ideal.matmul_constant_zero_apply, ← Equiv.sum_comp (contrEquiv1 d n hr hs).symm]
  exact Finset.sum_congr rfl fun k _ => by rw [hL k, hR k]

/-- The host's `dot_general`, one contracted axis of extent `n`: at `j` it is `∑ k, lhs (L k) · rhs (R k)`. -/
theorem dotGeneral_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    Host.dotGeneral d none lhs rhs j = ∑ k : Fin n, lhs (L k) * rhs (R k) := by
  simp only [Host.dotGeneral]
  rw [Ideal.dotGeneral_apply, ← Equiv.sum_comp (contrEquiv1 d n hr hs).symm]
  exact Finset.sum_congr rfl fun k _ => by rw [hL k, hR k]

end Cert.LibContract1

end
-- ==== Proof.LibMatRows.lean ====
/-
  A plain matrix product of an `[a, k]` array with a `[k, n]` array, contracted over the shared axis of extent `k`, read
  at the result's entry `(p, c)` at the ideal values: the sum over `j : Fin k` of `lhs (p, j) * rhs (j, c)` — for the
  kernel's `tpu.matmul` into the zero accumulator and for the host's `dot_general` alike.

  It holds for ANY dimension record between those three shapes that says what a plain product says (`RowsTimesMat`): one
  contracted axis of extent `k`; the left operand read at the result's row and the contracted coordinate; the right operand
  at the contracted coordinate and the result's column. For a printed record the six facts are `rfl`, `rfl`,
  `DotDims.lhsIdx_val_of_single rfl` / `rhsIdx_val_of_single rfl` on the contracted axes, and two `dif` rewrites (not a
  batch axis, a kept axis) on the kept ones.
-/
import proofs.«179993_j87067577024538_2_alg».proof.Proof.LibContract1
import Idealize.ShloMosaic.PureOps.Ideal.Laws
import Idealize.ShloMosaic.Lib.ValueIdx

noncomputable section

namespace Cert.LibMatRows

open Idealize.ShloMosaic Idealize.ShloMosaic.ValueIdx

/-- What a dimension record between `[a, k]`, `[k, n]` and `[a, n]` must say to be a plain product. -/
structure RowsTimesMat {a k n : ℕ} (d : DotDims ⟨2, ![a, k]⟩ ⟨2, ![k, n]⟩ ⟨2, ![a, n]⟩) : Prop where
  rank : d.contr.rank = 1
  size : d.contr.size ⟨0, by omega⟩ = k
  l0 : ∀ (i : (⟨2, ![a, n]⟩ : Shape).Idx) (q : d.contr.Idx), (d.lhsIdx i q 0).val = (i 0).val
  l1 : ∀ (i : (⟨2, ![a, n]⟩ : Shape).Idx) (q : d.contr.Idx), (d.lhsIdx i q 1).val = (q ⟨0, by omega⟩).val
  r0 : ∀ (i : (⟨2, ![a, n]⟩ : Shape).Idx) (q : d.contr.Idx), (d.rhsIdx i q 0).val = (q ⟨0, by omega⟩).val
  r1 : ∀ (i : (⟨2, ![a, n]⟩ : Shape).Idx) (q : d.contr.Idx), (d.rhsIdx i q 1).val = (i 1).val

variable {a k n : ℕ} {d : DotDims ⟨2, ![a, k]⟩ ⟨2, ![k, n]⟩ ⟨2, ![a, n]⟩}

/-- The left operand's index at result entry `(p, c)` and contracted coordinate `j` is `(p, j)`. -/
theorem RowsTimesMat.lhsIdx_eq (hd : RowsTimesMat d) (p : Fin a) (c : Fin n) (j : Fin k) :
    d.lhsIdx (ix2 p c) ((contrEquiv1 d k hd.rank hd.size).symm j) = ix2 p j :=
  funext fun ax => Fin.ext (by
    match ax with
    | ⟨0, _⟩ => exact hd.l0 _ _
    | ⟨1, _⟩ => exact (hd.l1 _ _).trans (contrEquiv1_symm_val d k hd.rank hd.size j))

/-- The right operand's index at result entry `(p, c)` and contracted coordinate `j` is `(j, c)`. -/
theorem RowsTimesMat.rhsIdx_eq (hd : RowsTimesMat d) (p : Fin a) (c : Fin n) (j : Fin k) :
    d.rhsIdx (ix2 p c) ((contrEquiv1 d k hd.rank hd.size).symm j) = ix2 j c :=
  funext fun ax => Fin.ext (by
    match ax with
    | ⟨0, _⟩ => exact (hd.r0 _ _).trans (contrEquiv1_symm_val d k hd.rank hd.size j)
    | ⟨1, _⟩ => exact hd.r1 _ _)

/-- The kernel's product into the zero accumulator at `(p, c)`. -/
theorem matmul_rows {φ₁ φ₂ : FTy} (hd : RowsTimesMat d) (lhs : FVec Ideal ⟨2, ![a, k]⟩ φ₁) (rhs : FVec Ideal ⟨2, ![k, n]⟩ φ₂)
    (p : Fin a) (c : Fin n) :
    matmul d none lhs rhs (constant (F := Ideal) ⟨2, ![a, n]⟩ .f32 0x00000000#32) (ix2 p c) = ∑ j : Fin k, lhs (ix2 p j) * rhs (ix2 j c) :=
  LibContract1.matmul_zero_single d k hd.rank hd.size lhs rhs (ix2 p c) (fun j => ix2 p j) (fun j => ix2 j c)
    (hd.lhsIdx_eq p c) (hd.rhsIdx_eq p c)

/-- The host's product at `(p, c)`. -/
theorem dotGeneral_rows {φ₁ φ₂ : FTy} (hd : RowsTimesMat d) (lhs : FVec Ideal ⟨2, ![a, k]⟩ φ₁) (rhs : FVec Ideal ⟨2, ![k, n]⟩ φ₂)
    (p : Fin a) (c : Fin n) :
    Host.dotGeneral d none lhs rhs (ix2 p c) = ∑ j : Fin k, lhs (ix2 p j) * rhs (ix2 j c) :=
  LibContract1.dotGeneral_single d k hd.rank hd.size lhs rhs (ix2 p c) (fun j => ix2 p j) (fun j => ix2 j c)
    (hd.lhsIdx_eq p c) (hd.rhsIdx_eq p c)

end Cert.LibMatRows

end
-- ==== Proof.Stored.lean ====
/-
  What one grid step stores, entry by entry: from its 2048 rows of `x` (the block `x0`) and the whole 512 x 512 matrix (the
  block `x1`) the body stores tanh of their matrix product. At the ideal values the two roundings to bf16 on the way into
  the product are the identity, the product into the zero accumulator is the plain sum over the shared axis, so entry
  `(p, q)` of the stored block is
    tanh ( sum_k x0[p, k] * x1[k, q] ).
-/
import proofs.«179993_j87067577024538_2_alg».proof.Proof.Gen.KernelIdeal.Skeleton
import proofs.«179993_j87067577024538_2_alg».proof.Proof.LibMatRows
import Idealize.ShloMosaic.Lib.Pipeline.Value
import Idealize.ShloMosaic.Lib.ValueIdx
import Idealize.ShloMosaic.PureOps.Ideal.Laws

noncomputable section

namespace Cert.CommLayer

open Cert.KernelIdeal Cert.KernelIdeal.Gen Idealize.ShloMosaic Idealize.ShloMosaic.ValueIdx

/-- The body's dimension record is a plain rows-times-matrix product over the 512 shared positions. -/
theorem dims_plain : LibMatRows.RowsTimesMat (a := 2048) (k := 512) (n := 512) dot_S2048x512_S512x512_S2048x512_1_0_0_1_n_n where
  rank := rfl
  size := rfl
  l0 := fun i q => by
    unfold DotDims.lhsIdx
    rw [dif_neg (show ¬(0 : Fin S2048x512.rank) ∈ dot_S2048x512_S512x512_S2048x512_1_0_0_1_n_n.lhsBatch by decide),
      dif_pos (show (0 : Fin S2048x512.rank) ∈ dot_S2048x512_S512x512_S2048x512_1_0_0_1_n_n.lhsNonContracting by decide)]
    rfl
  l1 := fun i q => dot_S2048x512_S512x512_S2048x512_1_0_0_1_n_n.lhsIdx_val_of_single rfl i q
  r0 := fun i q => dot_S2048x512_S512x512_S2048x512_1_0_0_1_n_n.rhsIdx_val_of_single rfl i q
  r1 := fun i q => by
    unfold DotDims.rhsIdx
    rw [dif_neg (show ¬(1 : Fin S512x512.rank) ∈ dot_S2048x512_S512x512_S2048x512_1_0_0_1_n_n.rhsBatch by decide),
      dif_pos (show (1 : Fin S512x512.rank) ∈ dot_S2048x512_S512x512_S2048x512_1_0_0_1_n_n.rhsNonContracting by decide)]
    rfl

/-- Entry `(p, q)` of what the body stores. -/
theorem stored_apply (x0 : Vec Ideal S2048x512 .f32) (x1 : Vec Ideal S512x512 .bf16) (p : Fin 2048) (q : Fin 512) :
    k0_pay1 (F := Ideal) x0 x1 (ix2 p q) = Ideal.tanh (∑ k : Fin 512, x0 (ix2 p k) * x1 (ix2 k q)) := by
  unfold k0_pay1
  show Ideal.tanh (matmul dot_S2048x512_S512x512_S2048x512_1_0_0_1_n_n none (truncf .bf16 x0 bitsLt_bf16_f32)
    (shapeCast S512x512 x1 shapeCasts_S512x512_S512x512) (constant (F := Ideal) S2048x512 .f32 0x00000000#32) (ix2 p q)) = _
  refine congrArg Ideal.tanh ?_
  refine (LibMatRows.matmul_rows dims_plain _ _ p q).trans ?_
  refine Finset.sum_congr rfl fun k _ => ?_
  rw [shapeCast_self]
  rfl

end Cert.CommLayer

end
-- ==== Proof.KernelValue.lean ====
/-
  The kernel's result array is `dense` of the three inputs.

  The grid has 32 steps; step `t` reads rows `2048 t .. 2048 t + 2047` of `x` and the whole 512 x 512 matrix, and writes the
  same rows of the result. Entry (p, q) of what it writes is tanh of row `2048 t + p` of `x` against column `q` of the
  matrix, and the matrix the grid finds is `weight`, so step `t` writes rows `2048 t ..` of `dense`. Row `r` of the result
  is written by step `r / 2048`, so the steps' blocks cover the array and the array ends as `dense`.
-/
import proofs.«179993_j87067577024538_2_alg».proof.Proof.Gen.KernelIdeal.Value
import proofs.«179993_j87067577024538_2_alg».proof.Proof.Weights
import proofs.«179993_j87067577024538_2_alg».proof.Proof.Stored
import Idealize.ShloMosaic.Lib.StableHlo.Run

noncomputable section

namespace Cert.CommLayer

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The matrix as the grid finds it: the host operations' term of the two weight inputs. -/
theorem matrix_at_entry (c : Dev nD) :
    (V m c main_call0_v15 : S512x512.Idx → EReal)
      = blockMatrix (m ((c : Thread nD τ).loc main_arg1)) (m ((c : Thread nD τ).loc main_arg2)) := by
  dsimp only [Gen.V, Gen.hostOps0]
  after_results
  rfl

/-- One stored entry against one entry of `dense`: the step's rows are rows of `x`, its matrix is `weight`. -/
theorem entry_eq (x : Mat 65536 512) (H C : Mat 64 64) (x0 : Vec Ideal S2048x512 .f32) (x1 : Vec Ideal S512x512 .bf16)
    (p : Fin 2048) (q : Fin 512) (i : S65536x512.Idx)
    (h0 : ∀ k : Fin 512, x0 (ix2 p k) = x (ix2 (i 0) k))
    (h1 : ∀ k : Fin 512, x1 (ix2 k q) = weight H C k (i 1)) :
    k0_pay1 (F := Ideal) x0 x1 (ix2 p q) = dense x H C i := by
  rw [stored_apply]
  unfold dense
  refine congrArg Ideal.tanh (Finset.sum_congr rfl fun k _ => ?_)
  rw [h0, h1]

theorem offsets_zero : (![0, 0] : Fin 2 → Nat) = fun _ => 0 := funext fun a => by fin_cases a <;> rfl

/-- Where each window's block sits at step `t`: the rows' and the result's at block row `t`, the matrix's always at the origin. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What step `t` writes back is block `t` of `dense`. -/
theorem written_eq (c : Dev nD) (t : Fin cfg0.N) :
    (dats m 0 c).flushed 2 t = ((cfg0.win 2).blk t).view.read (Elt Ideal)
      (dense (V m c main_arg0) (m ((c : Thread nD τ).loc main_arg1)) (m ((c : Thread nD τ).loc main_arg2))) := by
  rw [Cert.KernelIdeal.Value.flushed2]
  unfold out0_2
  rw [View.canon_unit_zero offsets_zero]
  simp only [View.ld_unit_zero (S := S2048x512) offsets_zero, View.ld_unit_zero (S := S512x512) offsets_zero]
  obtain ⟨e0, e1, e2, e3, e4, e5⟩ := block_indices t
  funext j
  obtain ⟨p, q, rfl⟩ : ∃ (p : Fin 2048) (q : Fin 512), j = ix2 p q := ⟨j 0, j 1, eq_ix2 j⟩
  show k0_pay1 (F := Ideal) (iblk m c 0 t) (iblk m c 1 t) (ix2 p q)
    = dense (V m c main_arg0) (m ((c : Thread nD τ).loc main_arg1)) (m ((c : Thread nD τ).loc main_arg2))
        (((cfg0.win 2).blk t).view.emb (ix2 p q))
  refine entry_eq (V m c main_arg0) _ _ (iblk m c 0 t) (iblk m c 1 t) p q _ (fun k => ?_) (fun k => ?_)
  · show V m c main_arg0 (((cfg0.win 0).blk t).view.emb (ix2 p k))
      = V m c main_arg0 (ix2 ((((cfg0.win 2).blk t).view.emb (ix2 p q)) 0) k)
    refine congrArg (V m c main_arg0) (funext fun a => Fin.ext ?_)
    match a with
    | ⟨0, _⟩ => show win0_0.index t (0 : Fin 2) * 2048 + 1 * p.val = win0_2.index t (0 : Fin 2) * 2048 + 1 * p.val; omega
    | ⟨1, _⟩ => show win0_0.index t (1 : Fin 2) * 512 + 1 * k.val = k.val; omega
  · have hq : (((cfg0.win 2).blk t).view.emb (ix2 p q)) 1 = q :=
      Fin.ext (by show win0_2.index t (1 : Fin 2) * 512 + 1 * q.val = q.val; omega)
    have hk : ((cfg0.win 1).blk t).view.emb (ix2 k q) = ix2 k q := funext fun a => Fin.ext (by
      match a with
      | ⟨0, _⟩ => show win0_1.index t (0 : Fin 2) * 512 + 1 * k.val = k.val; omega
      | ⟨1, _⟩ => show win0_1.index t (1 : Fin 2) * 512 + 1 * q.val = q.val; omega)
    show V m c main_call0_v15 (((cfg0.win 1).blk t).view.emb (ix2 k q))
      = weight (m ((c : Thread nD τ).loc main_arg1)) (m ((c : Thread nD τ).loc main_arg2)) k
          ((((cfg0.win 2).blk t).view.emb (ix2 p q)) 1)
    refine ((congrArg (V m c main_call0_v15) hk).trans ?_).trans
      (congrArg (weight (m ((c : Thread nD τ).loc main_arg1)) (m ((c : Thread nD τ).loc main_arg2)) k) hq.symm)
    rw [matrix_at_entry, blockMatrix_apply]

/-- An index is in step `t`'s block iff each coordinate is in the block's range. -/
theorem mem_block (t : Fin cfg0.N) (i : S65536x512.Idx) :
    i ∈ ((cfg0.win 2).blk t).view.set ↔ ∀ a : Fin 2, win0_2.index t a * S2048x512.size a ≤ (i a).val
      ∧ (i a).val < win0_2.index t a * S2048x512.size a + S2048x512.size a := by
  show i ∈ ((View.whole main_v0).slice (win0_2.rect t)).set ↔ _
  rw [View.set_slice_whole, Rect.mem_set_unit]
  exact Iff.rfl

/-- Row `r` is written by step `r / 2048`. -/
theorem covered (i : S65536x512.Idx) : ∃ t : Fin cfg0.N, (cfg0.win 2).flush t = true ∧ i ∈ ((cfg0.win 2).blk t).view.set := by
  have hi0 : (i 0).val < 65536 := (i 0).isLt
  have hi1 : (i 1).val < 512 := (i 1).isLt
  have ht : (i 0).val / 2048 < cfg0.N := by show (i 0).val / 2048 < grid0.N; rw [N_0]; omega
  obtain ⟨-, -, -, -, e4, e5⟩ := block_indices ⟨(i 0).val / 2048, ht⟩
  have e4' : win0_2.index ⟨(i 0).val / 2048, ht⟩ (0 : Fin 2) = (i 0).val / 2048 := e4
  refine ⟨⟨(i 0).val / 2048, ht⟩, flush0_2 _, ?_⟩
  rw [mem_block]
  intro a
  match a with
  | ⟨0, _⟩ =>
    show win0_2.index ⟨(i 0).val / 2048, ht⟩ (0 : Fin 2) * 2048 ≤ (i 0).val
      ∧ (i 0).val < win0_2.index ⟨(i 0).val / 2048, ht⟩ (0 : Fin 2) * 2048 + 2048
    omega
  | ⟨1, _⟩ =>
    show win0_2.index ⟨(i 0).val / 2048, ht⟩ (1 : Fin 2) * 512 ≤ (i 1).val
      ∧ (i 1).val < win0_2.index ⟨(i 0).val / 2048, ht⟩ (1 : Fin 2) * 512 + 512
    omega

/-- The result array after the run. -/
theorem result_eq (c : Dev nD) : (dats m 0 c).arrAt 2 cfg0.N
    = dense (m ((c : Thread nD τ).loc main_arg0)) (m ((c : Thread nD τ).loc main_arg1)) (m ((c : Thread nD τ).loc main_arg2)) := by
  rw [← V_main_arg0 m c]
  exact (dats m 0 c).arrAt_eq_of_cover 2 _ (fun t _ => written_eq m c t) covered

/-- The kernel's run with its result named. -/
theorem kernel_run : θ_run defs (onTc (τ := τ) (main (F := Ideal))) ⟨m, fun _ => 0, ρ⟩ fun r => ∀ c : Dev nD,
      r.2.mem ((c : Thread nD τ).loc main_v0)
        = dense (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result_eq m c), (h c).2⟩) (Cert.KernelIdeal.Value.run_blocks m ρ)

end Cert.CommLayer

end
-- ==== Proof.Reference.lean ====
/-
  The reference computes `message`.

  Its result at row `b`, position `n` is its rank-3 value at (row `b`, agent `agent n`, component `comp n`). There the two
  contractions run over the component `d`: the first reads the reshaped `x` at (b, agent n, d), which is `x` at position
  `pos (agent n) d` of row `b`, against `H` at (comp n, d); the second reads, against `C` at (comp n, d), the sum over all
  agents of the reshaped `x` at (b, a', d) — spread back over the agent axis — minus the agent's own entry.
-/
import proofs.«179993_j87067577024538_2_alg».proof.Proof.Gen.ReferenceIdeal.Read
import proofs.«179993_j87067577024538_2_alg».proof.Proof.Spec

noncomputable section

namespace Cert.CommLayer

open Cert.ReferenceIdeal Cert.ReferenceIdeal.Read Idealize.ShloMosaic Idealize.ShloMosaic.ValueIdx

/-- Position `n` of row `b` in the rank-3 arrangement. -/
theorem at_result (b : Fin 65536) (n : Fin 512) : idx_main_v11 (ix2 b n) = ix3 b (agent n) (comp n) :=
  funext fun ax => Fin.ext (by
    have hb := b.isLt; have hn := n.isLt
    match ax with
    | ⟨0, _⟩ => show (b.val * 512 + n.val) / 512 = b.val; omega
    | ⟨1, _⟩ => show (b.val * 512 + n.val) / 64 % 8 = n.val / 64; omega
    | ⟨2, _⟩ => show (b.val * 512 + n.val) % 64 = n.val % 64; omega)

/-- Entry (b, a, d) of the reshaped `x` is `x` at position `pos a d` of row `b`. -/
theorem at_reshaped (b : Fin 65536) (a : Fin 8) (d : Fin 64) : idx_main_v0 (ix3 b a d) = ix2 b (pos a d) :=
  funext fun ax => Fin.ext (by
    have hb := b.isLt; have ha := a.isLt; have hd := d.isLt
    match ax with
    | ⟨0, _⟩ => show ((b.val * 8 + a.val) * 64 + d.val) / 512 = b.val; omega
    | ⟨1, _⟩ => show ((b.val * 8 + a.val) * 64 + d.val) % 512 = a.val * 64 + d.val; omega)

theorem left_own (b : Fin 65536) (a : Fin 8) (e d : Fin 64) : lidx_main_v5 (ix3 b a e) d = ix3 b a d :=
  funext fun ax => Fin.ext (by match ax with | ⟨0, _⟩ => rfl | ⟨1, _⟩ => rfl | ⟨2, _⟩ => rfl)

theorem right_own (b : Fin 65536) (a : Fin 8) (e d : Fin 64) : ridx_main_v5 (ix3 b a e) d = ix2 e d :=
  funext fun ax => Fin.ext (by match ax with | ⟨0, _⟩ => rfl | ⟨1, _⟩ => rfl)

theorem left_others (b : Fin 65536) (a : Fin 8) (e d : Fin 64) : lidx_main_v6 (ix3 b a e) d = ix3 b a d :=
  funext fun ax => Fin.ext (by match ax with | ⟨0, _⟩ => rfl | ⟨1, _⟩ => rfl | ⟨2, _⟩ => rfl)

theorem right_others (b : Fin 65536) (a : Fin 8) (e d : Fin 64) : ridx_main_v6 (ix3 b a e) d = ix2 e d :=
  funext fun ax => Fin.ext (by match ax with | ⟨0, _⟩ => rfl | ⟨1, _⟩ => rfl)

/-- The agents' sum, spread back over the agent axis, read at (b, a, d), sums the entries (b, a', d). -/
theorem at_spread (b : Fin 65536) (a a' : Fin 8) (d : Fin 64) :
    idx_main_v1 (idx_main_v2 (idx_main_v3 (ix3 b a d))) a' = ix3 b a' d :=
  funext fun ax => Fin.ext (by match ax with | ⟨0, _⟩ => rfl | ⟨1, _⟩ => rfl | ⟨2, _⟩ => rfl)

theorem reference_eq_message (x : Mat 65536 512) (H C : Mat 64 64) :
    val_main_v11 (F := Ideal) x H C = message x H C := by
  funext i
  obtain ⟨b, n, rfl⟩ : ∃ (b : Fin 65536) (n : Fin 512), i = ix2 b n := ⟨i 0, i 1, eq_ix2 i⟩
  rw [val_main_v11_apply, at_result, val_main_v10_apply, val_main_v9_apply, val_main_v5_apply, val_main_v8_apply,
    val_main_v6_apply, val_main_v7_apply, val_main_cst_0_apply]
  simp only [val_main_v4_apply, val_main_v3_apply, val_main_v2_apply, val_main_v1_apply, val_main_cst_apply,
    val_main_v0_apply, left_own, right_own, left_others, right_others, at_spread, at_reshaped,
    Ideal.hostUnary_tanh_def, Ideal.addf_def, Ideal.subf_def, Ideal.hostDivf_def, Ideal.ofBits_def]
  rfl

end Cert.CommLayer

end
-- ==== Proof.Algebra.lean ====
/-
  The two formulas of the layer agree on real inputs.

  Fix a row, an agent `a` and a component; write `X a' d` for the row's entries, `h d` and `c d` for the two weight rows
  that matter. The one-product form sums, over every agent `a'` and component `d`,
    X a' d * (if a' = a then h d else c d / 7);
  splitting the sum over `a'` into the term `a' = a` and the rest, the rest is
    sum_d (sum_a' X a' d - X a d) * c d / 7,
  which is the message-passing form. The steps — taking a common factor out of a sum, and adding and subtracting the
  term `a' = a` — are laws of a field, not of the extended reals (infinity minus infinity), so the law is proved over the
  reals and carried to extended-real inputs that are all real.
-/
import proofs.«179993_j87067577024538_2_alg».proof.Proof.Spec
import Idealize.ShloMosaic.PureOps.Ideal.Laws
import Mathlib.Algebra.BigOperators.Ring.Finset

noncomputable section

namespace Cert.CommLayer

open Idealize.ShloMosaic Idealize.ShloMosaic.ValueIdx

/-! ## A row of 512 as eight agents of 64 components -/

/-- Positions of a row are pairs (agent, component). -/
def posEquiv : Fin 8 × Fin 64 ≃ Fin 512 where
  toFun p := pos p.1 p.2
  invFun n := (agent n, comp n)
  left_inv p := Prod.ext (agent_pos p.1 p.2) (comp_pos p.1 p.2)
  right_inv n := pos_agent_comp n

/-- A sum over a row's positions, agent by agent. -/
theorem sum_pos {M : Type*} [AddCommMonoid M] (f : Fin 512 → M) :
    ∑ k : Fin 512, f k = ∑ a : Fin 8, ∑ d : Fin 64, f (pos a d) :=
  (Fintype.sum_equiv posEquiv (fun p => f (pos p.1 p.2)) f (fun _ => rfl)).symm.trans
    (Fintype.sum_prod_type' (fun a d => f (pos a d)))

/-! ## The law over the reals -/

theorem law_real (X : Fin 8 → Fin 64 → ℝ) (h c : Fin 64 → ℝ) (a : Fin 8) :
    ∑ a' : Fin 8, ∑ d : Fin 64, X a' d * (if a' = a then h d else c d * (1 / 7))
      = ∑ d : Fin 64, X a d * h d + (∑ d : Fin 64, ((0 + ∑ a' : Fin 8, X a' d) - X a d) * c d) * (1 / 7) := by
  rw [Finset.sum_comm, Finset.sum_mul, ← Finset.sum_add_distrib]
  refine Finset.sum_congr rfl fun d _ => ?_
  have split : ∀ a' : Fin 8, X a' d * (if a' = a then h d else c d * (1 / 7))
      = (if a' = a then X a' d * h d - X a' d * (c d * (1 / 7)) else 0) + X a' d * (c d * (1 / 7)) := by
    intro a'
    by_cases e : a' = a
    · rw [if_pos e, if_pos e]; ring
    · rw [if_neg e, if_neg e]; ring
  rw [Finset.sum_congr rfl fun a' _ => split a', Finset.sum_add_distrib, Finset.sum_ite_eq' Finset.univ a,
    if_pos (Finset.mem_univ a), ← Finset.sum_mul]
  ring

/-! ## Real numbers among the extended reals -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_ite (p : Prop) [Decidable p] (u v : ℝ) : ((if p then u else v : ℝ) : EReal) = if p then (u : EReal) else (v : EReal) := by
  by_cases e : p
  · rw [if_pos e, if_pos e]
  · rw [if_neg e, if_neg e]

/-- The word of 7.0 is the real 7. -/
theorem ofBits_seven : Ideal.ofBits .f32 0x40E00000#32 = ((7 : ℝ) : EReal) := by
  simp [Ideal.ofBits, Ideal.ieee, -EReal.coe_mul]; norm_num

/-! ## The two formulas on real inputs -/

theorem dense_eq_message (x : Mat 65536 512) (H C : Mat 64 64)
    (hx : ∀ i, ∃ r : ℝ, x i = (r : EReal)) (hH : ∀ i, ∃ r : ℝ, H i = (r : EReal)) (hC : ∀ i, ∃ r : ℝ, C i = (r : EReal)) :
    dense x H C = message x H C := by
  choose xr hx using hx
  choose Hr hH using hH
  choose Cr hC using hC
  funext i
  obtain ⟨b, n, rfl⟩ : ∃ (b : Fin 65536) (n : Fin 512), i = ix2 b n := ⟨i 0, i 1, eq_ix2 i⟩
  show Ideal.tanh (∑ k : Fin 512, x (ix2 b k) * weight H C k n)
    = Ideal.tanh ((∑ d : Fin 64, x (ix2 b (pos (agent n) d)) * H (ix2 (comp n) d))
      + Ideal.div (∑ d : Fin 64, ((Ideal.ofBits .f32 0x00000000#32 + ∑ a' : Fin 8, x (ix2 b (pos a' d)))
          - x (ix2 b (pos (agent n) d))) * C (ix2 (comp n) d)) seven)
  refine congrArg Ideal.tanh ?_
  rw [sum_pos]
  simp only [weight, agent_pos, comp_pos, hx, hH, hC, ofBits_seven, Ideal.ofBits_zero_f32,
    Ideal.div_coe (by norm_num : (7 : ℝ) ≠ 0)]
  have key := congrArg (fun r : ℝ => (r : EReal))
    (law_real (fun a' d => xr (ix2 b (pos a' d))) (fun d => Hr (ix2 (comp n) d)) (fun d => Cr (ix2 (comp n) d)) (agent n))
  simp only [coe_sum, coe_ite, EReal.coe_add, EReal.coe_mul, EReal.coe_sub, EReal.coe_zero] at key
  exact key

end Cert.CommLayer

end
-- ==== Proof.Finite.lean ====
/-
  What the precondition says: every entry of the three inputs is a real number.

  The precondition is three tests joined by "and", one per input: every entry's absolute value is below the f32 word
  of +infinity. On the extended reals an absolute value max(a, -a) is below +infinity exactly when `a` is neither
  infinity, that is, when `a` is a real.
-/
import proofs.«179993_j87067577024538_2_alg».proof.Pre_finite_inputs
import proofs.«179993_j87067577024538_2_alg».proof.Proof.Spec
import Idealize.ShloMosaic.Lib.ReduceAll
import Idealize.ShloMosaic.Lib.ValueIdx
import Idealize.ShloMosaic.PureOps.Ideal.Laws

noncomputable section

namespace Cert.CommLayer

open Idealize.ShloMosaic Idealize.ShloMosaic.ValueIdx

instance : Subsingleton Cert.Pre_finite_inputs.S_.Idx := ⟨fun _ _ => funext fun d => d.elim0⟩

/-- An extended real whose absolute value is below the word of +infinity is a real. -/
theorem real_of_abs_lt (a : EReal)
    (h : Ideal.cmp .olt (max a (-a)) (Ideal.ofBits .f32 0x7F800000#32) = 1#1) : ∃ r : ℝ, a = (r : EReal) := by
  have htop : Ideal.ofBits .f32 0x7F800000#32 = ⊤ := by simp [Ideal.ofBits, Ideal.ieee]
  rw [htop] at h
  induction a using EReal.rec with
  | bot => simp [Ideal.cmp] at h
  | coe r => exact ⟨r, rfl⟩
  | top => simp [Ideal.cmp] at h

variable [Cert.Pre_finite_inputs.Facts]

/-- The precondition holding of `x`, `H`, `C` makes every entry of each a real. -/
theorem real_of_pre (x : Mat 65536 512) (H C : Mat 64 64)
    (h : Cert.Pre_finite_inputs.fn (F := Ideal) x H C = fun _ => 1#1) :
    (∀ i, ∃ r : ℝ, x i = (r : EReal)) ∧ (∀ i, ∃ r : ℝ, H i = (r : EReal)) ∧ (∀ i, ∃ r : ℝ, C i = (r : EReal)) := by
  have h0 := congrFun h ix0
  dsimp only [Cert.Pre_finite_inputs.fn] at h0
  obtain ⟨h12, hC⟩ := IntOp.andi_eq_one.1 h0
  obtain ⟨hx, hH⟩ := IntOp.andi_eq_one.1 h12
  refine ⟨fun i => ?_, fun i => ?_, fun i => ?_⟩
  · have e := Host.reduce_andi_all _ _ _ _ ix0 hx i
    exact real_of_abs_lt (x i) e
  · have e := Host.reduce_andi_all _ _ _ _ ix0 hH i
    exact real_of_abs_lt (H i) e
  · have e := Host.reduce_andi_all _ _ _ _ ix0 hC i
    exact real_of_abs_lt (C i) e

end Cert.CommLayer

end
-- ==== Proof.lean ====
/-
  The layer "own vector through H, the other agents' sum through C over 7, tanh", computed two ways, is one function of
  finite inputs: `Cert.Claim`.

  The kernel builds on the host a 512 x 512 matrix whose 64 x 64 blocks are the transpose of `H` on the diagonal and the
  transpose of `C` over 7 elsewhere, and its grid computes tanh of `x` times that matrix, 2048 rows per step
  (`CommLayer.dense`: Proof/Weights.lean reads the matrix, Proof/Stored.lean one step's entries, Proof/KernelValue.lean the whole
  result array). The reference reshapes each row into eight agents' vectors, sums them, subtracts the agent's own, and
  contracts twice (`CommLayer.message`: Proof/Reference.lean). For inputs that are all real (Proof/Finite.lean: what the
  precondition says) the two agree (Proof/Algebra.lean): the matrix product's sum over the 512 positions, split agent by
  agent, is the own term plus the others' terms, and a common divisor comes out of a sum of reals.

  The three frames are the generated ones (the reference's is its run with the result dropped); the idealization rewrote
  nothing, so `preserves` asks nothing.
-/
import proofs.«179993_j87067577024538_2_alg».proof.Defs
import proofs.«179993_j87067577024538_2_alg».proof.Proof.Gen.Kernel
import proofs.«179993_j87067577024538_2_alg».proof.Proof.Gen.Kernel.Frame
import proofs.«179993_j87067577024538_2_alg».proof.Proof.Gen.KernelIdeal
import proofs.«179993_j87067577024538_2_alg».proof.Proof.Gen.KernelIdeal.Frame
import proofs.«179993_j87067577024538_2_alg».proof.Proof.Gen.KernelIdeal.Value
import proofs.«179993_j87067577024538_2_alg».proof.Proof.Gen.ReferenceIdeal
import proofs.«179993_j87067577024538_2_alg».proof.Proof.Gen.ReferenceIdeal.Run
import proofs.«179993_j87067577024538_2_alg».proof.Proof.Gen.ReferenceIdeal.Read
import proofs.«179993_j87067577024538_2_alg».proof.Proof.Gen.Pre_finite_inputs
import proofs.«179993_j87067577024538_2_alg».proof.Proof.KernelValue
import proofs.«179993_j87067577024538_2_alg».proof.Proof.Reference
import proofs.«179993_j87067577024538_2_alg».proof.Proof.Algebra
import proofs.«179993_j87067577024538_2_alg».proof.Proof.Finite

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at `dense` of the kernel's inputs: the kernel's by its value, the reference's because it computes
    `message` of inputs that agree with the kernel's, and `message` is `dense` on real inputs. -/
theorem algebraic : Cert.algebraic_KernelIdeal_ReferenceIdeal := by
  intro m ρ m' ρ' hpre hagree
  refine ⟨_, Cert.CommLayer.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨hx, hH, hC⟩ := Cert.CommLayer.real_of_pre _ _ _ (hpre c)
  rw [Cert.ReferenceIdeal.Read.val_main_v11_eq, Cert.CommLayer.reference_eq_message, (hagree c).1, (hagree c).2.1, (hagree c).2.2]
  exact (Cert.CommLayer.dense_eq_message _ _ _ hx hH hC).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
